-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000 : Shape := ⟨1, ![800000]⟩
abbrev S1 : Shape := ⟨1, ![1]⟩
abbrev S96x256 : Shape := ⟨2, ![96, 256]⟩
abbrev S256x256 : Shape := ⟨2, ![256, 256]⟩
abbrev S256 : Shape := ⟨1, ![256]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000 : S_.BroadcastsInDim S800000 (![] : Fin 0 → Fin S800000.rank)
  reducesTo_S800000_S_d0 : S800000.ReducesTo [0] S_
  bcast_S_S1 : S_.BroadcastsInDim S1 (![] : Fin 0 → Fin S1.rank)
  reducesTo_S1_S_d0 : S1.ReducesTo [0] S_
  bcast_S_S96x256 : S_.BroadcastsInDim S96x256 (![] : Fin 0 → Fin S96x256.rank)
  reducesTo_S96x256_S_d0_1 : S96x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg9 : FVec F S256 .f32) (main_arg10 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg6 : FVec F S256x256 .f32) (main_arg7 : FVec F S256 .f32) (main_arg8 : FVec F S256 .f32) (main_arg9 : FVec F S256 .f32) (main_arg10 : FVec F S256 .f32) (main_v13 : IVec S_ 1) (main_v16 : IVec S96x256 1) : IVec S_ 1 :=
  let main_c_5 : IVec S_ 1 := constantI S_ 1 1#1
  let main_v17 : IVec S_ 1 := (fun x v => Host.reduce IntOp.andi x v reducesTo_S96x256_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S50000x96 .f32) (main_arg1 : IVec S800000 32) (main_arg2 : IVec S800000 32) (main_arg3 : FVec F S800000 .f32) (main_arg4 : FVec F S1 .f32) (main_arg5 : FVec F S96x256 .f32) (main_arg6 : FVec F S256x256 .f32) (main_arg7 : FVec F S256 .f32) (main_arg8 : FVec F S256 .f32) (main_arg9 : FVec F S256 .f32) (main_arg10 : FVec F S256 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S1 .f32 := Host.absf main_arg4
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S96x256 .f32 := Host.absf main_arg5
  let main_cst_4 : FVec F S_ .f32 := constant S_ .f32 0x7F800000#32
  let main_v15 : FVec F S96x256 .f32 := broadcastInDim S96x256 ![] bcast_S_S96x256 main_cst_4
  let main_v16 : IVec S96x256 1 := cmpf .olt main_v14 main_v15
  fn_part1 (F := F) main_arg6 main_arg7 main_arg8 main_arg9 main_arg10 main_v13 main_v16
-- ==== Kernel.lean ====
abbrev S50000x96 : Shape := ⟨2, ![50000, 96]⟩
abbrev S800000 : Shape := ⟨1, ![800000]⟩
abbrev S1 : Shape := ⟨1, ![1]⟩
abbrev S96x256 : Shape := ⟨2, ![96, 256]⟩
abbrev S256x256 : Shape := ⟨2, ![256, 256]⟩
abbrev S256 : Shape := ⟨1, ![256]⟩
abbrev S800000x1 : Shape := ⟨2, ![800000, 1]⟩
abbrev S_ : Shape := ⟨0, ![]⟩
abbrev S800000x96 : Shape := ⟨2, ![800000, 96]⟩
abbrev S1x1 : Shape := ⟨2, ![1, 1]⟩
abbrev S50000x256 : Shape := ⟨2, ![50000, 256]⟩
abbrev S2000x96 : Shape := ⟨2, ![2000, 96]⟩
abbrev S2000x256 : Shape := ⟨2, ![2000, 256]⟩
abbrev S1x256 : Shape := ⟨2, ![1, 256]⟩

abbrev nBuf : Space → Nat
  | .hbm => 32
  | .vmem => 10
  | .smem => 0
  | _ => 0

abbrev bufTy : (tb : Table) → Fin (tcTables nBuf tb) → BufTy
  | .hbm, ⟨0, _⟩ => ⟨S50000x96, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S1, .f32⟩
  | .hbm, ⟨5, _⟩ => ⟨S96x256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S800000x1, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x96, .f32⟩
  | .hbm, ⟨21, _⟩ => ⟨S800000x96, .f32⟩
  | .hbm, ⟨22, _⟩ => ⟨S800000x96, .f32⟩
  | .hbm, ⟨23, _⟩ => ⟨S_, .f32⟩
  | .hbm, ⟨24, _⟩ => ⟨S50000x96, .f32⟩
  | .hbm, ⟨25, _⟩ => ⟨S800000x1, .i32⟩
  | .hbm, ⟨26, _⟩ => ⟨S50000x96, .f32⟩
  | .hbm, ⟨27, _⟩ => ⟨S1x1, .f32⟩
  | .hbm, ⟨28, _⟩ => ⟨S50000x96, .f32⟩
  | .hbm, ⟨29, _⟩ => ⟨S50000x96, .f32⟩
  | .hbm, ⟨30, _⟩ => ⟨S50000x96, .f32⟩
  | .hbm, ⟨31, _⟩ => ⟨S50000x256, .f32⟩
  | .local _ .vmem, ⟨0, _⟩ => ⟨S2000x96, .f32⟩
  | .local _ .vmem, ⟨1, _⟩ => ⟨S2000x96, .f32⟩
  | .local _ .vmem, ⟨2, _⟩ => ⟨S96x256, .f32⟩
  | .local _ .vmem, ⟨3, _⟩ => ⟨S256x256, .f32⟩
  | .local _ .vmem, ⟨4, _⟩ => ⟨S256, .f32⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S2000x256, .f32⟩
  | .local _ .vmem, ⟨9, _⟩ => ⟨S2000x256, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S1_S1x1_1 : S1.BroadcastsInDim S1x1 (![1] : Fin 1 → Fin S1x1.rank)
  bcast_S1x1_S50000x96_0_1 : S1x1.BroadcastsInDim S50000x96 (![0, 1] : Fin 2 → Fin S50000x96.rank)
  inb_S2000x96_S2000x96_0_0 : ∀ a, (![0, 0] : Fin 2 → Nat) a + S2000x96.size a ≤ S2000x96.size a
  h_S2000x96 : 0 < S2000x96.numel
  shapeCasts_S2000x96_S2000x96 : S2000x96.ShapeCasts S2000x96
  bitsLt_bf16_f32 : FTy.bits .bf16 < FTy.bits .f32
  inb_S96x256_S96x256_0_0 : ∀ a, (![0, 0] : Fin 2 → Nat) a + S96x256.size a ≤ S96x256.size a
  h_S96x256 : 0 < S96x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S96x256_S2000x256_1_0_0_1_n_n_wf : DotDims.WF S2000x96 S96x256 S2000x256 [1] [0] [0] [1] [] []
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x256.size a ≤ S96x256.size a
  hwx0_1 : ∀ i : grid0.Coords, EltTy.bits .f32 = 32 ∨ (Rect.block (s := S96x256) S96x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .f32 = 32 ∨ (Rect.block (s := S50000x256) S2000x256.size (cc0_transform_7 i) (hinb0_7 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S96x256_S2000x256_1_0_0_1_n_n : DotDims S2000x96 S96x256 S2000x256 where
  lhsContracting := [1]
  rhsContracting := [0]
  lhsNonContracting := [0]
  rhsNonContracting := [1]
  lhsBatch := []
  rhsBatch := []
  wf := dot_S2000x96_S96x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v16) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S96x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x96 : Shape := ⟨2, ![50000, 96]⟩
abbrev S800000 : Shape := ⟨1, ![800000]⟩
abbrev S1 : Shape := ⟨1, ![1]⟩
abbrev S96x256 : Shape := ⟨2, ![96, 256]⟩
abbrev S256x256 : Shape := ⟨2, ![256, 256]⟩
abbrev S256 : Shape := ⟨1, ![256]⟩
abbrev S800000x1 : Shape := ⟨2, ![800000, 1]⟩
abbrev S_ : Shape := ⟨0, ![]⟩
abbrev S800000x96 : Shape := ⟨2, ![800000, 96]⟩
abbrev S1x1 : Shape := ⟨2, ![1, 1]⟩
abbrev S50000x256 : Shape := ⟨2, ![50000, 256]⟩
abbrev S1x256 : Shape := ⟨2, ![1, 256]⟩

abbrev nBuf : Space → Nat
  | .hbm => 52
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S1, .f32⟩
  | .hbm, ⟨5, _⟩ => ⟨S96x256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S800000x1, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x96, .f32⟩
  | .hbm, ⟨21, _⟩ => ⟨S800000x96, .f32⟩
  | .hbm, ⟨22, _⟩ => ⟨S800000x96, .f32⟩
  | .hbm, ⟨23, _⟩ => ⟨S_, .f32⟩
  | .hbm, ⟨24, _⟩ => ⟨S50000x96, .f32⟩
  | .hbm, ⟨25, _⟩ => ⟨S800000x1, .i32⟩
  | .hbm, ⟨26, _⟩ => ⟨S50000x96, .f32⟩
  | .hbm, ⟨27, _⟩ => ⟨S1x1, .f32⟩
  | .hbm, ⟨28, _⟩ => ⟨S50000x96, .f32⟩
  | .hbm, ⟨29, _⟩ => ⟨S50000x96, .f32⟩
  | .hbm, ⟨30, _⟩ => ⟨S50000x96, .f32⟩
  | .hbm, ⟨31, _⟩ => ⟨S50000x256, .f32⟩
  | .hbm, ⟨32, _⟩ => ⟨S1x256, .f32⟩
  | .hbm, ⟨33, _⟩ => ⟨S50000x256, .f32⟩
  | .hbm, ⟨34, _⟩ => ⟨S50000x256, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S1x256, .f32⟩
  | .hbm, ⟨43, _⟩ => ⟨S50000x256, .f32⟩
  | .hbm, ⟨44, _⟩ => ⟨S50000x256, .f32⟩
  | .hbm, ⟨45, _⟩ => ⟨S1x256, .f32⟩
  | .hbm, ⟨46, _⟩ => ⟨S50000x256, .f32⟩
  | .hbm, ⟨47, _⟩ => ⟨S50000x256, .f32⟩
  | .hbm, ⟨48, _⟩ => ⟨S_, .f32⟩
  | .hbm, ⟨49, _⟩ => ⟨S50000x256, .f32⟩
  | .hbm, ⟨50, _⟩ => ⟨S50000x256, .f32⟩
  | .hbm, ⟨51, _⟩ => ⟨S50000x256, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S1_S1x1_1 : S1.BroadcastsInDim S1x1 (![1] : Fin 1 → Fin S1x1.rank)
  bcast_S1x1_S50000x96_0_1 : S1x1.BroadcastsInDim S50000x96 (![0, 1] : Fin 2 → Fin S50000x96.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S_S50000x256 : S_.BroadcastsInDim S50000x256 (![] : Fin 0 → Fin S50000x256.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x256_S50000x256_1_0_0_1_n_n_wf : DotDims.WF S50000x96 S96x256 S50000x256 [1] [0] [0] [1] [] []
  dot_S50000x256_S256x256_S50000x256_1_0_0_1_n_n_wf : DotDims.WF S50000x256 S256x256 S50000x256 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x256_S50000x256_1_0_0_1_n_n : DotDims S50000x96 S96x256 S50000x256 where
  lhsContracting := [1]
  rhsContracting := [0]
  lhsNonContracting := [0]
  rhsNonContracting := [1]
  lhsBatch := []
  rhsBatch := []
  wf := dot_S50000x96_S96x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.MlpSpec.lean ====
/-
  What both programs compute, written once, on the extended reals.

  A node's aggregated features form a row of 96 numbers. The first layer multiplies the row by the 96×256 matrix W0; hidden
  unit k is then normalised with that unit's running mean and variance, scaled by gamma, shifted by beta and clipped at zero:

      hidden k = max (((∑ j, row j · W0 (j, k)) − mean k) · (var k + ε)^(−1/2) · gamma k + beta k) 0,

  with ε the single-precision word nearest to one thousandth (both programs carry the same word, so it is never evaluated).
  The second layer multiplies the hidden row by the 256×256 matrix W1:

      out c = ∑ k, hidden k · W1 (k, c).

  The output array has one such row per node: entry (r, c) depends on row r of the aggregated features only. That is
  why the kernel may work on 2000 rows at a time, and why no law of the extended reals beyond reading the two matrix
  products as sums is needed: the two sides are the same expression, entry by entry.
-/
import Idealize.ShloMosaic.PureOps.Ideal
import Idealize.ShloMosaic.Lib.ValueIdx

noncomputable section

open scoped BigOperators

namespace Cert.MlpSpec

open Idealize.ShloMosaic Idealize.ShloMosaic.ValueIdx

/-- One hidden unit from its pre-activation `u`: subtract the unit's mean, multiply by the reciprocal square root of
    its variance plus ε, scale, shift, clip at zero. -/
def unit (u μ v g b : EReal) : EReal :=
  max ((u - μ) * Ideal.rsqrt (v + Ideal.ofBits .f32 0x3A83126F#32) * g + b) (Ideal.ofBits .f32 0x00000000#32)

/-- Hidden unit `k` of a feature row: the row times column `k` of W0, through `unit` with column `k` of the four
    normalisation vectors. -/
def hidden (row : Fin 96 → EReal) (W0 : FVec Ideal ⟨2, ![96, 256]⟩ .f32) (g b μ v : FVec Ideal ⟨1, ![256]⟩ .f32)
    (k : Fin 256) : EReal :=
  unit (∑ j : Fin 96, row j * W0 (ix2 j k)) (μ (ix1 k)) (v (ix1 k)) (g (ix1 k)) (b (ix1 k))

/-- Output entry `c` of a feature row: the hidden row times column `c` of W1. -/
def outEntry (row : Fin 96 → EReal) (W0 : FVec Ideal ⟨2, ![96, 256]⟩ .f32) (W1 : FVec Ideal ⟨2, ![256, 256]⟩ .f32)
    (g b μ v : FVec Ideal ⟨1, ![256]⟩ .f32) (c : Fin 256) : EReal :=
  ∑ k : Fin 256, hidden row W0 g b μ v k * W1 (ix2 k c)

/-- The whole output: entry (r, c) is `outEntry` of row r of the aggregated features. -/
def out (h0 : FVec Ideal ⟨2, ![50000, 96]⟩ .f32) (W0 : FVec Ideal ⟨2, ![96, 256]⟩ .f32)
    (W1 : FVec Ideal ⟨2, ![256, 256]⟩ .f32) (g b μ v : FVec Ideal ⟨1, ![256]⟩ .f32) :
    FVec Ideal ⟨2, ![50000, 256]⟩ .f32 :=
  fun i => outEntry (fun j => h0 (ix2 (i 0) j)) W0 W1 g b μ v (i 1)

end Cert.MlpSpec

end
-- ==== Proof.RefIsSpec.lean ====
/-
  The reference program's result is the specification of the aggregated features.

  Read at row r and column c, the host's second matrix product is the sum over k of its left operand at (r, k) times
  W1 (k, c). The left operand at (r, k) is a chain of entrywise operations — subtract the mean, multiply by the
  reciprocal square root, by gamma, add beta, take the maximum with zero — whose vector operands are rows broadcast
  down the 50000 nodes, so each reads column k of its vector; and the innermost operand is the first matrix product,
  the sum over j of the aggregated features at (r, j) times W0 (j, k). That is `MlpSpec.out` word for word.
-/
import proofs.«147344_j21887153341120_1_alg».proof.Proof.Gen.ReferenceIdeal.Read
import proofs.«147344_j21887153341120_1_alg».proof.Proof.MlpSpec

noncomputable section

open scoped BigOperators

namespace Cert.ReferenceIdeal.RefIsSpec

open Cert.ReferenceIdeal Cert.ReferenceIdeal.Read Idealize.ShloMosaic Idealize.ShloMosaic.ValueIdx

/-- The reference's result, as a function of its eleven arguments, is the specification applied to the aggregated
    features the reference itself computes (its value `%16`) and to the six dense parameters. -/
theorem result_eq (x0 : (⟨S50000x96, .f32⟩ : BufTy).Contents (Elt Ideal)) (x1 x2 : (⟨S800000, .i32⟩ : BufTy).Contents (Elt Ideal))
    (x3 : (⟨S800000, .f32⟩ : BufTy).Contents (Elt Ideal)) (x4 : (⟨S1, .f32⟩ : BufTy).Contents (Elt Ideal))
    (x5 : (⟨S96x256, .f32⟩ : BufTy).Contents (Elt Ideal)) (x6 : (⟨S256x256, .f32⟩ : BufTy).Contents (Elt Ideal))
    (x7 x8 x9 x10 : (⟨S256, .f32⟩ : BufTy).Contents (Elt Ideal)) :
    val_main_v34 (F := Ideal) x0 x1 x2 x3 x4 x5 x6 x7 x8 x9 x10
      = Cert.MlpSpec.out (val_main_v16 (F := Ideal) x0 x1 x2 x3 x4) x5 x6 x7 x8 x9 x10 := by
  funext i
  obtain ⟨r, c, rfl⟩ : ∃ (r : Fin 50000) (c : Fin 256), i = ix2 r c := ⟨i 0, i 1, eq_ix2 i⟩
  rw [val_main_v34_apply]
  unfold Cert.MlpSpec.out Cert.MlpSpec.outEntry
  refine Finset.sum_congr rfl fun k _ => ?_
  have el : lidx_main_v34 (ix2 r c) k = ix2 r k :=
    funext fun a => Fin.ext (by match a with | ⟨0, _⟩ => rfl | ⟨1, _⟩ => rfl)
  have er : ridx_main_v34 (ix2 r c) k = ix2 k c :=
    funext fun a => Fin.ext (by match a with | ⟨0, _⟩ => rfl | ⟨1, _⟩ => rfl)
  rw [el, er]
  refine congrArg (· * x6 (ix2 k c)) ?_
  have el17 : ∀ j : Fin 96, lidx_main_v17 (ix2 r k) j = ix2 r j := fun j =>
    funext fun a => Fin.ext (by match a with | ⟨0, _⟩ => rfl | ⟨1, _⟩ => rfl)
  have er17 : ∀ j : Fin 96, ridx_main_v17 (ix2 r k) j = ix2 j k := fun j =>
    funext fun a => Fin.ext (by match a with | ⟨0, _⟩ => rfl | ⟨1, _⟩ => rfl)
  have e19 : idx_main_v18 (idx_main_v19 (ix2 r k)) = ix1 k := funext fun a => Fin.ext (by match a with | ⟨0, _⟩ => rfl)
  have e25 : idx_main_v24 (idx_main_v25 (ix2 r k)) = ix1 k := funext fun a => Fin.ext (by match a with | ⟨0, _⟩ => rfl)
  have e28 : idx_main_v27 (idx_main_v28 (ix2 r k)) = ix1 k := funext fun a => Fin.ext (by match a with | ⟨0, _⟩ => rfl)
  have e31 : idx_main_v30 (idx_main_v31 (ix2 r k)) = ix1 k := funext fun a => Fin.ext (by match a with | ⟨0, _⟩ => rfl)
  rw [val_main_v33_apply, val_main_v32_apply, val_main_v29_apply, val_main_v26_apply, val_main_v20_apply,
    val_main_v17_apply, val_main_v19_apply, val_main_v18_apply, val_main_v25_apply, val_main_v24_apply, val_main_v23_apply,
    val_main_v22_apply, val_main_v21_apply, val_main_cst_1_apply, val_main_v28_apply, val_main_v27_apply,
    val_main_v31_apply, val_main_v30_apply, val_main_call0_v0_apply, val_main_call0_cst_apply, e19, e25, e28, e31]
  simp only [el17, er17, Ideal.maximumf_def, Ideal.addf_def, Ideal.mulf_def, Ideal.subf_def, Ideal.hostUnary_rsqrt_def,
    Ideal.ofBits_def]
  rfl

end Cert.ReferenceIdeal.RefIsSpec

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.KernelBlock.lean ====
/-
  What the kernel body computes on one block of 2000 nodes.

  The body multiplies the block of aggregated features by W0, normalises, clips at zero and multiplies by W1. On the
  extended reals the narrowing of a matrix product's operands to half precision is the identity and a product into a
  zero accumulator is the plain sum over the contracted coordinate, so entry (p, q) of the stored value is the
  specification's `outEntry` of row p of the block. The four normalisation vectors enter as one row laid over the 2000
  rows of the block: at (p, k) such a row reads the vector at k.
-/
import proofs.«147344_j21887153341120_1_alg».proof.Proof.Gen.KernelIdeal.Skeleton
import proofs.«147344_j21887153341120_1_alg».proof.Proof.MlpSpec
import proofs.«147344_j21887153341120_1_alg».proof.Proof.LibMatmulPlain
import Idealize.ShloMosaic.Lib.Pipeline.Value
import Idealize.ShloMosaic.Lib.ValueLayout

noncomputable section

open scoped BigOperators

namespace Cert.KernelIdeal.BlockValue

open Cert.KernelIdeal Cert.KernelIdeal.Gen Idealize.ShloMosaic Idealize.ShloMosaic.ValueIdx

/-- A vector of 256 entries viewed as a 1×256 row and laid over 2000 rows reads, at (p, k), the vector at k. -/
theorem row_over_block_apply (u : FVec Ideal S256 .f32) (h1 : S256.ShapeCasts S1x256) (h2 : S1x256.Broadcasts S2000x256)
    (p : Fin 2000) (k : Fin 256) :
    broadcastTo S2000x256 (shapeCast S1x256 u h1) h2 (ix2 p k) = u (ix1 k) :=
  (broadcastTo_1b_ab_apply (shapeCast S1x256 u h1) h2 p k).trans (shapeCast_a_1a_apply u h1 (0 : Fin 1) k)

/-- The first product of the body: the block of features, narrowed, times W0, narrowed, into the zero accumulator,
    reads at (p, k) the sum over j of the block at (p, j) times W0 at (j, k). -/
theorem first_product_apply (x0 : FVec Ideal S2000x96 .f32) (w0 : FVec Ideal S96x256 .f32) (hc : S2000x96.ShapeCasts S2000x96)
    (hb : FTy.bits .bf16 < FTy.bits .f32) (p : Fin 2000) (k : Fin 256) :
    matmul dot_S2000x96_S96x256_S2000x256_1_0_0_1_n_n none (truncf .bf16 (shapeCast S2000x96 x0 hc) hb) (truncf .bf16 w0 hb)
        (constant (F := Ideal) S2000x256 .f32 0x00000000#32) (ix2 p k)
      = ∑ j : Fin 96, x0 (ix2 p j) * w0 (ix2 j k) := by
  rw [shapeCast_self]
  exact Cert.LibMatmulPlain.matmul_plain_zero_apply none (truncf .bf16 x0 hb) (truncf .bf16 w0 hb) p k

/-- Entry (p, q) of the value the body stores is the specification's output entry q of row p of the feature block. -/
theorem payload_apply (x0 : Vec Ideal S2000x96 .f32) (w0 : Vec Ideal S96x256 .f32) (g b μ v : Vec Ideal S256 .f32)
    (w1 : Vec Ideal S256x256 .f32) (p : Fin 2000) (q : Fin 256) :
    k0_pay1 (F := Ideal) x0 w0 g b μ v w1 (ix2 p q)
      = Cert.MlpSpec.outEntry (fun j => x0 (ix2 p j)) w0 w1 g b μ v q := by
  unfold k0_pay1
  refine (Cert.LibMatmulPlain.matmul_plain_zero_apply none _ _ p q).trans ?_
  unfold Cert.MlpSpec.outEntry Cert.MlpSpec.hidden Cert.MlpSpec.unit
  refine Finset.sum_congr rfl fun k _ => ?_
  refine congrArg (· * w1 (ix2 k q)) ?_
  simp only [truncf_apply, maximumf_apply, addf_apply, mulf_apply, subf_apply, broadcast_apply, row_over_block_apply,
    first_product_apply, rsqrt, Ideal.rsqrt_def]
  rfl

end Cert.KernelIdeal.BlockValue

end
-- ==== Proof.KernelArray.lean ====
/-
  From blocks to the whole output array.

  The grid has 25 points. Point t reads rows 2000·t … 2000·t + 1999 of the aggregated features and the whole of the six
  dense parameters (their block index is zero at every point, so the block read back is the array itself), and writes
  back rows 2000·t … 2000·t + 1999 of the output. Because output entry (r, c) depends on row r of the features only,
  what point t writes back is block t of ONE function of the whole arrays, the specification `MlpSpec.out`. Row r lies
  in the block of point r / 2000, so the 25 blocks cover the output and the array ends holding the specification.

  The aggregated features are themselves computed before the launch (a gather, a scatter-add and a residual term over
  800000 edges). Nothing here looks inside them: every statement about a block is made for an arbitrary array and only
  then read at the arrays the launch finds.
-/
import proofs.«147344_j21887153341120_1_alg».proof.Proof.Gen.KernelIdeal.Value
import proofs.«147344_j21887153341120_1_alg».proof.Proof.MlpSpec
import proofs.«147344_j21887153341120_1_alg».proof.Proof.KernelBlock
import Idealize.ShloMosaic.Lib.Pipeline.Value

noncomputable section

open scoped BigOperators

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

theorem zero_offsets2 : (![0, 0] : Fin 2 → Nat) = fun _ => 0 := funext fun a => by fin_cases a <;> rfl
theorem zero_offsets1 : (![0] : Fin 1 → Nat) = fun _ => 0 := funext fun a => by fin_cases a; rfl

/-- The block indices over the 25 grid points: the feature window and the output window sit at block row t and block
    column 0; each of the six parameter windows sits at block 0. -/
theorem index_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0
    ∧ win0_5.index t (0 : Fin 1) = 0 ∧ win0_6.index t (0 : Fin 1) = 0 :=
  (by decide +kernel : ∀ t : Fin grid0.N, _)

/-! ## Each window's block of an arbitrary array -/

/-- The first weight matrix is read whole at every point. -/
theorem read_W0 (t : Fin cfg0.N) (A : S96x256.Idx → EReal) : ((cfg0.win 1).blk t).view.read (Elt Ideal) A = A := by
  obtain ⟨-, -, -, -, e0, e1, -⟩ := index_facts t
  funext y
  rw [View.read_apply]
  refine congrArg A ?_
  funext a; apply Fin.ext
  match a with
  | ⟨0, _⟩ => show win0_1.index t (0 : Fin 2) * 96 + 1 * (y 0).val = (y 0).val; rw [e0]; omega
  | ⟨1, _⟩ => show win0_1.index t (1 : Fin 2) * 256 + 1 * (y 1).val = (y 1).val; rw [e1]; omega

/-- The second weight matrix is read whole at every point. -/
theorem read_W1 (t : Fin cfg0.N) (A : S256x256.Idx → EReal) : ((cfg0.win 2).blk t).view.read (Elt Ideal) A = A := by
  obtain ⟨-, -, -, -, -, -, e0, e1, -⟩ := index_facts t
  funext y
  rw [View.read_apply]
  refine congrArg A ?_
  funext a; apply Fin.ext
  match a with
  | ⟨0, _⟩ => show win0_2.index t (0 : Fin 2) * 256 + 1 * (y 0).val = (y 0).val; rw [e0]; omega
  | ⟨1, _⟩ => show win0_2.index t (1 : Fin 2) * 256 + 1 * (y 1).val = (y 1).val; rw [e1]; omega

/-- The scale vector is read whole at every point. -/
theorem read_gamma (t : Fin cfg0.N) (A : S256.Idx → EReal) : ((cfg0.win 3).blk t).view.read (Elt Ideal) A = A := by
  obtain ⟨-, -, -, -, -, -, -, -, e0, -⟩ := index_facts t
  funext y
  rw [View.read_apply]
  refine congrArg A ?_
  funext a; apply Fin.ext
  match a with
  | ⟨0, _⟩ => show win0_3.index t (0 : Fin 1) * 256 + 1 * (y 0).val = (y 0).val; rw [e0]; omega

/-- The shift vector is read whole at every point. -/
theorem read_beta (t : Fin cfg0.N) (A : S256.Idx → EReal) : ((cfg0.win 4).blk t).view.read (Elt Ideal) A = A := by
  obtain ⟨-, -, -, -, -, -, -, -, -, e0, -⟩ := index_facts t
  funext y
  rw [View.read_apply]
  refine congrArg A ?_
  funext a; apply Fin.ext
  match a with
  | ⟨0, _⟩ => show win0_4.index t (0 : Fin 1) * 256 + 1 * (y 0).val = (y 0).val; rw [e0]; omega

/-- The mean vector is read whole at every point. -/
theorem read_mean (t : Fin cfg0.N) (A : S256.Idx → EReal) : ((cfg0.win 5).blk t).view.read (Elt Ideal) A = A := by
  obtain ⟨-, -, -, -, -, -, -, -, -, -, e0, -⟩ := index_facts t
  funext y
  rw [View.read_apply]
  refine congrArg A ?_
  funext a; apply Fin.ext
  match a with
  | ⟨0, _⟩ => show win0_5.index t (0 : Fin 1) * 256 + 1 * (y 0).val = (y 0).val; rw [e0]; omega

/-- The variance vector is read whole at every point. -/
theorem read_var (t : Fin cfg0.N) (A : S256.Idx → EReal) : ((cfg0.win 6).blk t).view.read (Elt Ideal) A = A := by
  obtain ⟨-, -, -, -, -, -, -, -, -, -, -, e0⟩ := index_facts t
  funext y
  rw [View.read_apply]
  refine congrArg A ?_
  funext a; apply Fin.ext
  match a with
  | ⟨0, _⟩ => show win0_6.index t (0 : Fin 1) * 256 + 1 * (y 0).val = (y 0).val; rw [e0]; omega

/-- Row p of the feature block of point t is row 2000·t + p of the feature array. -/
theorem read_feature_row (t : Fin cfg0.N) (A : S50000x96.Idx → EReal) (p : Fin 2000) (i : Fin 96) (r : Fin 50000)
    (hr : r.val = t.val * 2000 + p.val) :
    ((cfg0.win 0).blk t).view.read (Elt Ideal) A (ix2 p i) = A (ix2 r i) := by
  obtain ⟨e0, e1, -⟩ := index_facts t
  rw [View.read_apply]
  refine congrArg A ?_
  funext a; apply Fin.ext
  match a with
  | ⟨0, _⟩ => show win0_0.index t (0 : Fin 2) * 2000 + 1 * p.val = r.val; rw [e0, hr]; omega
  | ⟨1, _⟩ => show win0_0.index t (1 : Fin 2) * 96 + 1 * i.val = i.val; rw [e1]; omega

/-! ## What a point writes back -/

/-- For arbitrary arrays: what the body leaves in the output buffer at point t, from the windows' blocks of the arrays,
    is block t of the specification of the whole arrays. Entry (p, q) of the block is the output entry q of row p of
    the feature block, that is of row 2000·t + p of the features, and block t of the specification at (p, q) is its
    entry (2000·t + p, q). -/
theorem block_is_spec (t : Fin cfg0.N) (A0 : S50000x96.Idx → EReal) (A1 : S96x256.Idx → EReal) (A2 : S256x256.Idx → EReal)
    (A3 A4 A5 A6 : S256.Idx → EReal) :
    (cfg0.win 7).cut (grid0.coords t)
        (out0_7 (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5)
          (((cfg0.win 6).blk t).view.read (Elt Ideal) A6))
      = ((cfg0.win 7).blk t).view.read (Elt Ideal) (Cert.MlpSpec.out A0 A1 A2 A3 A4 A5 A6) := by
  rw [read_W0, read_W1, read_gamma, read_beta, read_mean, read_var]
  unfold out0_7
  rw [View.canon_unit_zero zero_offsets2]
  simp only [View.ld_unit_zero (S := S2000x96) zero_offsets2, View.ld_unit_zero (S := S96x256) zero_offsets2,
    View.ld_unit_zero (S := S256) zero_offsets1, View.ld_unit_zero (S := S256x256) zero_offsets2]
  funext j
  show k0_pay1 (((cfg0.win 0).blk t).view.read (Elt Ideal) A0) A1 A3 A4 A5 A6 A2 j
    = Cert.MlpSpec.out A0 A1 A2 A3 A4 A5 A6 (((cfg0.win 7).blk t).view.emb j)
  obtain ⟨p, q, rfl⟩ : ∃ (p : Fin 2000) (q : Fin 256), j = ix2 p q := ⟨j 0, j 1, eq_ix2 j⟩
  rw [Cert.KernelIdeal.BlockValue.payload_apply (((cfg0.win 0).blk t).view.read (Elt Ideal) A0) A1 A3 A4 A5 A6 A2 p q]
  obtain ⟨-, -, e0, e1, -⟩ := index_facts t
  have ht : t.val < 25 := Nat.lt_of_lt_of_eq t.isLt N_0
  have hp : p.val < 2000 := p.isLt
  have hemb : ((cfg0.win 7).blk t).view.emb (ix2 p q) = ix2 (⟨t.val * 2000 + p.val, by omega⟩ : Fin 50000) q := by
    funext a; apply Fin.ext
    match a with
    | ⟨0, _⟩ => show win0_7.index t (0 : Fin 2) * 2000 + 1 * p.val = t.val * 2000 + p.val; rw [e0]; omega
    | ⟨1, _⟩ => show win0_7.index t (1 : Fin 2) * 256 + 1 * q.val = q.val; rw [e1]; omega
  rw [hemb]
  show Cert.MlpSpec.outEntry (fun i => ((cfg0.win 0).blk t).view.read (Elt Ideal) A0 (ix2 p i)) A1 A2 A3 A4 A5 A6 q
    = Cert.MlpSpec.outEntry (fun i => A0 (ix2 (⟨t.val * 2000 + p.val, by omega⟩ : Fin 50000) i)) A1 A2 A3 A4 A5 A6 q
  exact congrArg (fun row => Cert.MlpSpec.outEntry row A1 A2 A3 A4 A5 A6 q)
    (funext fun i => read_feature_row t A0 p i ⟨t.val * 2000 + p.val, by omega⟩ rfl)

/-! ## The blocks cover the output -/

/-- An index of the output is in point t's block iff each coordinate is in the block's range on its axis. -/
theorem mem_block (t : Fin cfg0.N) (i : S50000x256.Idx) :
    i ∈ ((cfg0.win 7).blk t).view.set ↔ ∀ a : Fin 2, win0_7.index t a * S2000x256.size a ≤ (i a).val
      ∧ (i a).val < win0_7.index t a * S2000x256.size a + S2000x256.size a := by
  show i ∈ ((View.whole main_v17).slice (win0_7.rect t)).set ↔ _
  rw [View.set_slice_whole, Rect.mem_set_unit]
  exact Iff.rfl

/-- Row r of the output is written back by point r / 2000. -/
theorem rows_covered (i : S50000x256.Idx) :
    ∃ t : Fin cfg0.N, (cfg0.win 7).flush t = true ∧ i ∈ ((cfg0.win 7).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, e0, e1, -⟩ := index_facts t
  refine ⟨t, flush0_7 t, ?_⟩
  rw [mem_block]
  intro a
  match a with
  | ⟨0, _⟩ => show win0_7.index t (0 : Fin 2) * 2000 ≤ (i 0).val ∧ (i 0).val < win0_7.index t (0 : Fin 2) * 2000 + 2000; rw [e0, ht]; omega
  | ⟨1, _⟩ => show win0_7.index t (1 : Fin 2) * 256 ≤ (i 1).val ∧ (i 1).val < win0_7.index t (1 : Fin 2) * 256 + 256; rw [e1]; omega

/-! ## The output array after the run -/

variable (m : (ℓ : Loc nD τ sig) → Buf (Elt Ideal) ℓ) (ρ : Dev nD → PrngReg)

/-- The specification of the seven arrays as the launch finds them. -/
abbrev result (c : Dev nD) : S50000x256.Idx → EReal :=
  Cert.MlpSpec.out (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) (V m c (Pipeline.arrRef spec0 6))

/-- What point t writes back is block t of `result`. -/
theorem written_back_eq (c : Dev nD) (t : Fin cfg0.N) :
    (dats m 0 c).flushed 7 t = ((cfg0.win 7).blk t).view.read (Elt Ideal) (result m c) := by
  rw [flushed7]
  unfold iblk
  exact block_is_spec t _ _ _ _ _ _ _

/-- The output array ends holding `result`: every point writes back its block of it, and the blocks cover the array. -/
theorem array_eq (c : Dev nD) : (dats m 0 c).arrAt 7 cfg0.N = result m c :=
  (dats m 0 c).arrAt_eq_of_cover 7 (result m c) (fun t _ => written_back_eq m c t) rows_covered

/-- The six dense parameters are as launched when the launch finds them: nothing before it writes them. -/
theorem result_eq (c : Dev nD) :
    result m c = Cert.MlpSpec.out (V m c (Pipeline.arrRef spec0 0)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) := by
  have h1 : V m c (Pipeline.arrRef spec0 1) = m ((c : Thread nD τ).loc main_arg5) := V_main_arg5 m c
  have h2 : V m c (Pipeline.arrRef spec0 2) = m ((c : Thread nD τ).loc main_arg6) := V_main_arg6 m c
  have h3 : V m c (Pipeline.arrRef spec0 3) = m ((c : Thread nD τ).loc main_arg7) := V_main_arg7 m c
  have h4 : V m c (Pipeline.arrRef spec0 4) = m ((c : Thread nD τ).loc main_arg8) := V_main_arg8 m c
  have h5 : V m c (Pipeline.arrRef spec0 5) = m ((c : Thread nD τ).loc main_arg9) := V_main_arg9 m c
  have h6 : V m c (Pipeline.arrRef spec0 6) = m ((c : Thread nD τ).loc main_arg10) := V_main_arg10 m c
  show Cert.MlpSpec.out _ (V m c (Pipeline.arrRef spec0 1)) (V m c (Pipeline.arrRef spec0 2)) (V m c (Pipeline.arrRef spec0 3))
    (V m c (Pipeline.arrRef spec0 4)) (V m c (Pipeline.arrRef spec0 5)) (V m c (Pipeline.arrRef spec0 6)) = _
  rw [h1, h2, h3, h4, h5, h6]

/-- The kernel's run, read: the result array ends at `result`, the arguments unchanged. -/
theorem run : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨(h c).1.trans (array_eq m c), (h c).2⟩) (run_blocks m ρ)

end Cert.KernelIdeal.ArrayValue

end
-- ==== Proof.HostPrefix.lean ====
/-
  The aggregated features are the same function of the arguments in both programs.

  Before the dense layers both programs do the same thing to the node features x: gather the source node's row for each
  of the 800000 edges, scale it by the edge's weight, add it into the destination node's row (a scatter-add into zeros),
  and add eps · x. The two programs spell this with the same operations in the same order on the same argument arrays,
  so what the launch finds in the feature array is, as a term, what the reference calls its value `%16`. The sum over
  the edges is never opened: the two terms are compared as they stand.
-/
import proofs.«147344_j21887153341120_1_alg».proof.Proof.Gen.KernelIdeal.Frame
import proofs.«147344_j21887153341120_1_alg».proof.Proof.Gen.ReferenceIdeal.Read
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 1000000 in
/-- The feature array the launch finds is the reference's aggregated-features term of the first five arguments. -/
theorem features_eq (c : Dev nD) :
    (V m c (Pipeline.arrRef spec0 0) : S50000x96.Idx → EReal)
      = Cert.ReferenceIdeal.Read.val_main_v16 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  show (V m c main_v16 : S50000x96.Idx → EReal) = _
  dsimp only [V, hostOps0]
  after_results_simp
  rfl

end Cert.KernelIdeal.HostPrefix

end
-- ==== Proof.lean ====
/-
  A graph layer: sparse aggregation followed by a two-layer perceptron with batch normalisation, against its jnp reference.

  Both programs first aggregate the node features over 800000 weighted edges and add eps · x, by the same operations on
  the same arguments (Proof/HostPrefix.lean). The kernel then runs the dense part on 25 blocks of 2000 nodes; the
  reference runs it on all 50000 nodes at once. On the extended reals the dense part of a node is

      out c = ∑ k, max (((∑ j, h j · W0 (j, k)) − mean k) · (var k + ε)^(−1/2) · gamma k + beta k) 0 · W1 (k, c)

  (Proof/MlpSpec.lean), a function of that node's row h alone: the kernel's block of 2000 rows computes it row by row
  (Proof/KernelBlock.lean), the 25 blocks tile the output (Proof/KernelArray.lean), and the reference's two whole matrix
  products read, entry by entry, as the same sums (Proof/RefIsSpec.lean). No law of the extended reals is used beyond
  reading each matrix product as a sum, so the inputs' finiteness is never opened. The idealization rewrote nothing, so
  there is nothing to preserve.
-/
import proofs.«147344_j21887153341120_1_alg».proof.Defs
import proofs.«147344_j21887153341120_1_alg».proof.Proof.Gen.Kernel
import proofs.«147344_j21887153341120_1_alg».proof.Proof.Gen.Kernel.Frame
import proofs.«147344_j21887153341120_1_alg».proof.Proof.Gen.KernelIdeal
import proofs.«147344_j21887153341120_1_alg».proof.Proof.Gen.KernelIdeal.Frame
import proofs.«147344_j21887153341120_1_alg».proof.Proof.Gen.KernelIdeal.Value
import proofs.«147344_j21887153341120_1_alg».proof.Proof.Gen.ReferenceIdeal
import proofs.«147344_j21887153341120_1_alg».proof.Proof.Gen.ReferenceIdeal.Run
import proofs.«147344_j21887153341120_1_alg».proof.Proof.Gen.ReferenceIdeal.Read
import proofs.«147344_j21887153341120_1_alg».proof.Proof.Gen.Pre_finite_inputs
import proofs.«147344_j21887153341120_1_alg».proof.Proof.MlpSpec
import proofs.«147344_j21887153341120_1_alg».proof.Proof.RefIsSpec
import proofs.«147344_j21887153341120_1_alg».proof.Proof.KernelArray
import proofs.«147344_j21887153341120_1_alg».proof.Proof.HostPrefix
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as they were: its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- On the extended reals, from memories that agree on the eleven arguments, the kernel's output array and the
    reference's result are the same array: the specification of the aggregated features — one term of the first five
    arguments in both programs — and of the six dense parameters. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v34_eq, Cert.ReferenceIdeal.RefIsSpec.result_eq, a0, a1, a2, a3, a4, a5, a6, a7, a8, a9,
    a10]
  show _ = Cert.KernelIdeal.ArrayValue.result m c
  rw [Cert.KernelIdeal.ArrayValue.result_eq m c, Cert.KernelIdeal.HostPrefix.features_eq m c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
